-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768x256 : Shape := ⟨3, ![256, 768, 256]⟩
abbrev S256x256 : Shape := ⟨2, ![256, 256]⟩
abbrev S_ : Shape := ⟨0, ![]⟩

class Facts : Prop where
  bcast_S_S256x768x256 : S_.BroadcastsInDim S256x768x256 (![] : Fin 0 → Fin S256x768x256.rank)
  reducesTo_S256x768x256_S_d0_1_2 : S256x768x256.ReducesTo [0, 1, 2] S_
  h_S_ : 0 < S_.numel

variable [Facts]

def fn {F : FTy → Type} [FloatOps F] (main_arg0 : FVec F S256x768x256 .f32) (main_arg1 : IVec S256x256 32) : IVec S_ 1 :=
  let main_v0 : FVec F S256x768x256 .f32 := Host.absf main_arg0
  let main_cst : FVec F S_ .f32 := constant S_ .f32 0x7F800000#32
  let main_v1 : FVec F S256x768x256 .f32 := broadcastInDim S256x768x256 ![] bcast_S_S256x768x256 main_cst
  let main_v2 : IVec S256x768x256 1 := cmpf .olt main_v0 main_v1
  let main_c : IVec S_ 1 := constantI S_ 1 1#1
  let main_v3 : IVec S_ 1 := (fun x v => Host.reduce IntOp.andi x v reducesTo_S256x768x256_S_d0_1_2 h_S_) main_v2 main_c
  main_v3
-- ==== Kernel.lean ====
abbrev S256x768x256 : Shape := ⟨3, ![256, 768, 256]⟩
abbrev S256x256 : Shape := ⟨2, ![256, 256]⟩
abbrev S256x2304 : Shape := ⟨2, ![256, 2304]⟩
abbrev S32x768x256 : Shape := ⟨3, ![32, 768, 256]⟩
abbrev S32x256 : Shape := ⟨2, ![32, 256]⟩
abbrev S32x2304 : Shape := ⟨2, ![32, 2304]⟩
abbrev S32x1x256 : Shape := ⟨3, ![32, 1, 256]⟩
abbrev S32x128x256 : Shape := ⟨3, ![32, 128, 256]⟩
abbrev S32x128 : Shape := ⟨2, ![32, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x768x256, .f32⟩
  | .hbm, ⟨1, _⟩ => ⟨S256x256, .i32⟩
  | .hbm, ⟨2, _⟩ => ⟨S256x2304, .f32⟩
  | .local _ .vmem, ⟨0, _⟩ => ⟨S32x768x256, .f32⟩
  | .local _ .vmem, ⟨1, _⟩ => ⟨S32x768x256, .f32⟩
  | .local _ .vmem, ⟨2, _⟩ => ⟨S32x256, .i32⟩
  | .local _ .vmem, ⟨3, _⟩ => ⟨S32x256, .i32⟩
  | .local _ .vmem, ⟨4, _⟩ => ⟨S32x2304, .f32⟩
  | .local _ .vmem, ⟨5, _⟩ => ⟨S32x2304, .f32⟩
  | _, _ => ⟨S256x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x256_S32x256_0_0 : ∀ a, (![0, 0] : Fin 2 → Nat) a + S32x256.size a ≤ S32x256.size a
  h_S32x256 : 0 < S32x256.numel
  shapeCasts_S32x256_S32x1x256 : S32x256.ShapeCasts S32x1x256
  inb_S32x768x256_S32x128x256_0_0_0 : ∀ a, (![0, 0, 0] : Fin 3 → Nat) a + S32x128x256.size a ≤ S32x768x256.size a
  h_S32x128x256 : 0 < S32x128x256.numel
  broadcasts_S32x1x256_S32x128x256 : S32x1x256.Broadcasts S32x128x256
  reduces_S32x128x256_S32x128 : S32x128x256.Reduces [2] S32x128
  inb_S32x2304_S32x128_0_0 : ∀ a, (![0, 0] : Fin 2 → Nat) a + S32x128.size a ≤ S32x2304.size a
  h_S32x128 : 0 < S32x128.numel
  inb_S32x2304_S32x128_0_768 : ∀ a, (![0, 768] : Fin 2 → Nat) a + S32x128.size a ≤ S32x2304.size a
  inb_S32x2304_S32x128_0_1536 : ∀ a, (![0, 1536] : Fin 2 → Nat) a + S32x128.size a ≤ S32x2304.size a
  inb_S32x768x256_S32x128x256_0_128_0 : ∀ a, (![0, 128, 0] : Fin 3 → Nat) a + S32x128x256.size a ≤ S32x768x256.size a
  inb_S32x2304_S32x128_0_128 : ∀ a, (![0, 128] : Fin 2 → Nat) a + S32x128.size a ≤ S32x2304.size a
  inb_S32x2304_S32x128_0_896 : ∀ a, (![0, 896] : Fin 2 → Nat) a + S32x128.size a ≤ S32x2304.size a
  inb_S32x2304_S32x128_0_1664 : ∀ a, (![0, 1664] : Fin 2 → Nat) a + S32x128.size a ≤ S32x2304.size a
  inb_S32x768x256_S32x128x256_0_256_0 : ∀ a, (![0, 256, 0] : Fin 3 → Nat) a + S32x128x256.size a ≤ S32x768x256.size a
  inb_S32x2304_S32x128_0_256 : ∀ a, (![0, 256] : Fin 2 → Nat) a + S32x128.size a ≤ S32x2304.size a
  inb_S32x2304_S32x128_0_1024 : ∀ a, (![0, 1024] : Fin 2 → Nat) a + S32x128.size a ≤ S32x2304.size a
  inb_S32x2304_S32x128_0_1792 : ∀ a, (![0, 1792] : Fin 2 → Nat) a + S32x128.size a ≤ S32x2304.size a
  inb_S32x768x256_S32x128x256_0_384_0 : ∀ a, (![0, 384, 0] : Fin 3 → Nat) a + S32x128x256.size a ≤ S32x768x256.size a
  inb_S32x2304_S32x128_0_384 : ∀ a, (![0, 384] : Fin 2 → Nat) a + S32x128.size a ≤ S32x2304.size a
  inb_S32x2304_S32x128_0_1152 : ∀ a, (![0, 1152] : Fin 2 → Nat) a + S32x128.size a ≤ S32x2304.size a
  inb_S32x2304_S32x128_0_1920 : ∀ a, (![0, 1920] : Fin 2 → Nat) a + S32x128.size a ≤ S32x2304.size a
  inb_S32x768x256_S32x128x256_0_512_0 : ∀ a, (![0, 512, 0] : Fin 3 → Nat) a + S32x128x256.size a ≤ S32x768x256.size a
  inb_S32x2304_S32x128_0_512 : ∀ a, (![0, 512] : Fin 2 → Nat) a + S32x128.size a ≤ S32x2304.size a
  inb_S32x2304_S32x128_0_1280 : ∀ a, (![0, 1280] : Fin 2 → Nat) a + S32x128.size a ≤ S32x2304.size a
  inb_S32x2304_S32x128_0_2048 : ∀ a, (![0, 2048] : Fin 2 → Nat) a + S32x128.size a ≤ S32x2304.size a
  inb_S32x768x256_S32x128x256_0_640_0 : ∀ a, (![0, 640, 0] : Fin 3 → Nat) a + S32x128x256.size a ≤ S32x768x256.size a
  inb_S32x2304_S32x128_0_640 : ∀ a, (![0, 640] : Fin 2 → Nat) a + S32x128.size a ≤ S32x2304.size a
  inb_S32x2304_S32x128_0_1408 : ∀ a, (![0, 1408] : Fin 2 → Nat) a + S32x128.size a ≤ S32x2304.size a
  inb_S32x2304_S32x128_0_2176 : ∀ a, (![0, 2176] : Fin 2 → Nat) a + S32x128.size a ≤ S32x2304.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x768x256.size a ≤ S256x768x256.size a
  hwx0_0 : ∀ i : grid0.Coords, EltTy.bits .f32 = 32 ∨ (Rect.block (s := S256x768x256) S32x768x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S256x256.size a
  hwx0_1 : ∀ i : grid0.Coords, EltTy.bits .i32 = 32 ∨ (Rect.block (s := S256x256) S32x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2304.size a ≤ S256x2304.size a
  hwx0_2 : ∀ i : grid0.Coords, EltTy.bits .f32 = 32 ∨ (Rect.block (s := S256x2304) S32x2304.size (cc0_transform_2 i) (hinb0_2 i)).WholeWords (EltTy.packing .f32)

variable [Facts₀]

abbrev win0_0 : Pipeline.Window sig grid0 :=
  Pipeline.Window.ofSpec (Memref.whole main_arg0) S32x768x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x768x256 : Shape := ⟨3, ![256, 768, 256]⟩
abbrev S256x256 : Shape := ⟨2, ![256, 256]⟩
abbrev S256x256x1 : Shape := ⟨3, ![256, 256, 1]⟩
abbrev S3 : Shape := ⟨1, ![3]⟩
abbrev S_ : Shape := ⟨0, ![]⟩
abbrev S1x1x3 : Shape := ⟨3, ![1, 1, 3]⟩
abbrev S256x256x3 : Shape := ⟨3, ![256, 256, 3]⟩
abbrev S256x3x256 : Shape := ⟨3, ![256, 3, 256]⟩
abbrev S256x3x1x256 : Shape := ⟨4, ![256, 3, 1, 256]⟩
abbrev S256x1x768x256 : Shape := ⟨4, ![256, 1, 768, 256]⟩
abbrev S256x3x768x256 : Shape := ⟨4, ![256, 3, 768, 256]⟩
abbrev S256x3x768 : Shape := ⟨3, ![256, 3, 768]⟩
abbrev S256x2304 : Shape := ⟨2, ![256, 2304]⟩

abbrev nBuf : Space → Nat
  | .hbm => 27
  | .vmem => 0
  | .smem => 0
  | _ => 0

abbrev bufTy : (tb : Table) → Fin (tcTables nBuf tb) → BufTy
  | .hbm, ⟨0, _⟩ => ⟨S256x768x256, .f32⟩
  | .hbm, ⟨1, _⟩ => ⟨S256x256, .i32⟩
  | .hbm, ⟨2, _⟩ => ⟨S256x256x1, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S1x1x3, .i32⟩
  | .hbm, ⟨8, _⟩ => ⟨S256x256x3, .i32⟩
  | .hbm, ⟨9, _⟩ => ⟨S256x256x3, .i32⟩
  | .hbm, ⟨10, _⟩ => ⟨S256x256x3, .i1⟩
  | .hbm, ⟨11, _⟩ => ⟨S256x256x3, .f32⟩
  | .hbm, ⟨12, _⟩ => ⟨S256x3x256, .f32⟩
  | .hbm, ⟨13, _⟩ => ⟨S_, .f32⟩
  | .hbm, ⟨14, _⟩ => ⟨S256x3x256, .f32⟩
  | .hbm, ⟨15, _⟩ => ⟨S256x3x256, .f32⟩
  | .hbm, ⟨16, _⟩ => ⟨S256x3x1x256, .f32⟩
  | .hbm, ⟨17, _⟩ => ⟨S_, .f32⟩
  | .hbm, ⟨18, _⟩ => ⟨S256x3x1x256, .f32⟩
  | .hbm, ⟨19, _⟩ => ⟨S256x3x1x256, .f32⟩
  | .hbm, ⟨20, _⟩ => ⟨S256x1x768x256, .f32⟩
  | .hbm, ⟨21, _⟩ => ⟨S256x3x768x256, .f32⟩
  | .hbm, ⟨22, _⟩ => ⟨S256x3x768x256, .f32⟩
  | .hbm, ⟨23, _⟩ => ⟨S256x3x768x256, .f32⟩
  | .hbm, ⟨24, _⟩ => ⟨S_, .f32⟩
  | .hbm, ⟨25, _⟩ => ⟨S256x3x768, .f32⟩
  | .hbm, ⟨26, _⟩ => ⟨S256x2304, .f32⟩
  | _, _ => ⟨S256x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S256x256_S256x256x1_0_1 : S256x256.BroadcastsInDim S256x256x1 (![0, 1] : Fin 2 → Fin S256x256x1.rank)
  bcast_S_S3 : S_.BroadcastsInDim S3 (![] : Fin 0 → Fin S3.rank)
  bcast_S3_S1x1x3_2 : S3.BroadcastsInDim S1x1x3 (![2] : Fin 1 → Fin S1x1x3.rank)
  bcast_S256x256x1_S256x256x3_0_1_2 : S256x256x1.BroadcastsInDim S256x256x3 (![0, 1, 2] : Fin 3 → Fin S256x256x3.rank)
  bcast_S1x1x3_S256x256x3_0_1_2 : S1x1x3.BroadcastsInDim S256x256x3 (![0, 1, 2] : Fin 3 → Fin S256x256x3.rank)
  transposes_S256x256x3_S256x3x256_0_2_1 : S256x256x3.Transposes [0, 2, 1] S256x3x256
  bcast_S_S256x3x256 : S_.BroadcastsInDim S256x3x256 (![] : Fin 0 → Fin S256x3x256.rank)
  bcast_S256x3x256_S256x3x1x256_0_1_3 : S256x3x256.BroadcastsInDim S256x3x1x256 (![0, 1, 3] : Fin 3 → Fin S256x3x1x256.rank)
  bcast_S_S256x3x1x256 : S_.BroadcastsInDim S256x3x1x256 (![] : Fin 0 → Fin S256x3x1x256.rank)
  bcast_S256x768x256_S256x1x768x256_0_2_3 : S256x768x256.BroadcastsInDim S256x1x768x256 (![0, 2, 3] : Fin 3 → Fin S256x1x768x256.rank)
  bcast_S256x1x768x256_S256x3x768x256_0_1_2_3 : S256x1x768x256.BroadcastsInDim S256x3x768x256 (![0, 1, 2, 3] : Fin 4 → Fin S256x3x768x256.rank)
  bcast_S256x3x1x256_S256x3x768x256_0_1_2_3 : S256x3x1x256.BroadcastsInDim S256x3x768x256 (![0, 1, 2, 3] : Fin 4 → Fin S256x3x768x256.rank)
  reducesTo_S256x3x768x256_S256x3x768_d3 : S256x3x768x256.ReducesTo [3] S256x3x768
  h_S_ : 0 < S_.numel
  shapeCasts_S256x3x768_S256x2304 : S256x3x768.ShapeCasts S256x2304

variable [Facts₀]

class Facts : Prop extends Facts₀ where

variable [Facts]
-- ==== Proof.LibVecMaxLast.lean ====
/-
  The vector unit's maximum over the LAST axis of a rank-three array, read at an index, at the extended reals.

  A float maximum-reduction of an [a, b, c] array along axis 2, started from the f32 word 0xFF800000, is at (p, q) the
  fold of max from ⊥ over the c entries (p, q, j): that word denotes −∞, the neutral element of max on the extended
  reals, and the reduced index (p, q) with j inserted on the last axis is (p, q, j).
-/
import Idealize.ShloMosaic.PureOps.Ideal.Laws
import Idealize.ShloMosaic.Lib.ValueIdx

noncomputable section

namespace Idealize.ShloMosaic.VecMaxLast

open Idealize.ShloMosaic Idealize.ShloMosaic.ValueIdx

/-- The f32 word 0xFF800000 denotes −∞. -/
theorem negInf_word : Ideal.ofBits .f32 0xFF800000#32 = (⊥ : EReal) := by simp [Ideal.ofBits, Ideal.ieee]

/-- The maximum of an [a, b, c] array along its last axis, taken from the word for −∞, read at (p, q). -/
theorem maxLast_apply {a b c : ℕ} (src : FVec Ideal ⟨3, ![a, b, c]⟩ .f32)
    (h : Shape.Reduces ⟨3, ![a, b, c]⟩ [2] ⟨2, ![a, b]⟩) (hφ : FKind.Formats .f32)
    (hacc : (0xFF800000#32 : BitVec 32) = 0xFF800000#32) (p : Fin a) (q : Fin b) :
    multiReduction .maximumf [2] ⟨2, ![a, b]⟩ src 0xFF800000#32 h hφ hacc (ix2 p q)
      = (Finset.univ : Finset (Fin c)).fold max (⊥ : EReal) (fun j => src (ix3 p q j)) := by
  refine (Ideal.multiReduction_maximumf_single src 0xFF800000#32 h hφ hacc (ix2 p q)).trans ?_
  show (Finset.univ : Finset (Fin c)).fold max (Ideal.ofBits .f32 0xFF800000#32) (src ∘ h.lift (ix2 p q)) = _
  rw [negInf_word]
  refine congrArg (fun f => Finset.fold max (⊥ : EReal) f (Finset.univ : Finset (Fin c))) (funext fun j => congrArg src ?_)
  funext d
  match d with
  | ⟨0, _⟩ => rfl
  | ⟨1, _⟩ => rfl
  | ⟨2, _⟩ => rfl

end Idealize.ShloMosaic.VecMaxLast

end
-- ==== Proof.LibRank3Read.lean ====
/-
  Layout operations and single-axis reductions of rank-3 arrays, read at an index written by coordinates.

  A row-wise kernel that keeps a block `[a, b, c]` meets: a per-row vector kept with a middle unit axis (`[a, c]` cast to
  `[a, 1, c]`) and spread over the middle axis (`[a, 1, c]` to `[a, b, c]`); a matrix kept with a trailing unit axis
  (`[a, b]` cast to `[a, b, 1]`) and spread over the last axis (`[a, b, 1]` to `[a, b, c]`); the block's sums along its
  last and along its middle axis; the block itself as a cast of `[a, 1, b, c]`; and a row's maximum taken from the
  word for minus infinity. In every cast the row-major position is unchanged; a broadcast reads the unit coordinate `0`; a sum
  or maximum over one axis ranges over that axis's coordinate with the others fixed.
-/
import Idealize.ShloMosaic.PureOps.Ideal.Laws
import Idealize.ShloMosaic.Lib.Pipeline.Value
import Idealize.ShloMosaic.Lib.ValueIdx

noncomputable section

open scoped BigOperators

namespace Idealize.ShloMosaic.Rank3Read

open Idealize.ShloMosaic Idealize.ShloMosaic.ValueIdx

variable {α : Type}

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_three, Shape.rowMajor_val_two]
    show p.val * c + r.val = (p.val * 1 + u.val) * c + r.val
    rw [hu, Nat.mul_one, Nat.add_zero])

/-- `[a, 1, c]` spread to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    have hu : u.val = 0 := by omega
    rw [Shape.rowMajor_val_three, Shape.rowMajor_val_two]
    show p.val * b + q.val = (p.val * b + q.val) * 1 + u.val
    rw [hu, Nat.mul_one, Nat.add_zero])

/-- `[a, b, 1]` spread to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- `[a, 1, b, c]` cast to `[a, b, c]` reads, at `(p, q, r)`, the operand at `(p, 0, q, r)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h (ix3 p q r) (ix4 p (0 : Fin 1) q r) (by
    rw [Shape.rowMajor_val_four, Shape.rowMajor_val_three]
    show ((p.val * 1 + 0) * b + q.val) * c + r.val = (p.val * b + q.val) * c + r.val
    rw [Nat.mul_one, Nat.add_zero])

/-- The sum of an `[a, b, c]` array along its LAST axis, from the zero accumulator, read at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src ?_
  funext d
  match d with
  | ⟨0, _⟩ => rfl
  | ⟨1, _⟩ => rfl
  | ⟨2, _⟩ => rfl

/-- The sum of an `[a, b, c]` array along its MIDDLE axis, from the zero accumulator, read at `(p, r)`. -/
theorem sumMiddle_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = 0x00000000#32) (p : Fin a) (r : Fin c) :
    multiReduction .add [1] ⟨2, ![a, c]⟩ src 0x00000000#32 h hφ hacc (ix2 p r) = ∑ k : Fin b, src (ix3 p k r) := by
  refine (Ideal.multiReduction_add_single src 0x00000000#32 h hφ hacc (ix2 p r)).trans ?_
  refine Finset.sum_congr rfl fun k _ => congrArg src ?_
  funext d
  match d with
  | ⟨0, _⟩ => rfl
  | ⟨1, _⟩ => rfl
  | ⟨2, _⟩ => rfl

/-- The maximum of a row of an `[a, b]` array, taken from the word for minus infinity, read at row `p`: the fold of
    `max` from that word's value over the row's entries (the word is not evaluated). -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun j => src (ix2 p j)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine congrArg (fun f => Finset.fold max (Ideal.ofBits .f32 0xFF800000#32) f (Finset.univ : Finset (Fin b))) (funext fun j => congrArg src ?_)
  funext d
  match d with
  | ⟨0, _⟩ => rfl
  | ⟨1, _⟩ => rfl

end Idealize.ShloMosaic.Rank3Read

end
-- ==== Proof.PieceSpec.lean ====
/-
  Masked max-pooling per piece, as one function of the arrays.

  Every position l of a row b carries a piece id mk (b, l). For the piece with id w the pooled value of channel k is
  the maximum over l of x (b, k, l) + bias, where the bias is 0 at the positions whose id is w and a penalty M at the
  others. The result is laid out piece-major: column e of row b holds piece e / 768 (id e / 768 + 1), channel e % 768.

  The bias is written here as a function of the comparison's one-bit word. Choosing between 0 and M by that bit, and
  multiplying M by one minus the bit read as a number, are the same extended real at both values of the bit:
  M · (1 − 1) = M · 0 = 0 and M · (1 − 0) = M · 1 = M. Neither needs M to be finite, and M is never evaluated.
-/
import Idealize.ShloMosaic.PureOps.Ideal
import Idealize.ShloMosaic.Lib.ValueIdx

noncomputable section

namespace Cert.PieceMax

open Idealize.ShloMosaic Idealize.ShloMosaic.ValueIdx

/-- The bias of a position for a piece, from the bit of "the position's id is the piece's": 0 where it is, M elsewhere. -/
def bias (M : EReal) (bit : BitVec 1) : EReal := Scalar.select bit 0 M

/-- The f32 word of 1.0 denotes 1. -/
theorem one_word : Ideal.ofBits .f32 0x3F800000#32 = (1 : EReal) := by
  simp [Ideal.ofBits, Ideal.ieee, -EReal.coe_mul]; norm_num

/-- The f32 word of 0.0 denotes 0. -/
theorem zero_word : Ideal.ofBits .f32 0x00000000#32 = (0 : EReal) := by simp [Ideal.ofBits, Ideal.ieee]

/-- Choosing 0 or M by the bit is M times (1 − the bit as a number), on every extended real M. -/
theorem bias_eq_mul (M : EReal) (bit : BitVec 1) :
    bias M bit = M * (Ideal.ofBits .f32 0x3F800000#32 - ((bit.toNat : ℝ) : EReal)) := by
  rw [one_word]
  rcases BitVec.eq_zero_or_eq_one bit with h | h <;> subst h
  · show Scalar.select 0#1 (0 : EReal) M = M * ((1 : EReal) - (((0 : ℕ) : ℝ) : EReal))
    rw [select_zero, Nat.cast_zero, EReal.coe_zero, sub_zero, mul_one]
  · show Scalar.select 1#1 (0 : EReal) M = M * ((1 : EReal) - (((1 : ℕ) : ℝ) : EReal))
    rw [select_one, Nat.cast_one, ← EReal.coe_one, ← EReal.coe_sub, sub_self, EReal.coe_zero, mul_zero]

/-- The pooled array of B rows: at (b, e) the maximum over the positions l of x (b, e % 768, l) plus the bias of
    position l for the piece with id e / 768 + 1. -/
def pooled {B : ℕ} (M : EReal) (x : (⟨3, ![B, 768, 256]⟩ : Shape).Idx → EReal)
    (mk : (⟨2, ![B, 256]⟩ : Shape).Idx → BitVec 32) : (⟨2, ![B, 2304]⟩ : Shape).Idx → EReal := fun i =>
  (Finset.univ : Finset (Fin 256)).fold max (⊥ : EReal) fun l =>
    x (ix3 (⟨(i 0).val, (i 0).isLt⟩ : Fin B) (⟨(i 1).val % 768, Nat.mod_lt _ (by decide)⟩ : Fin 768) l)
      + bias M (IntOp.cmpi .eq (mk (ix2 (⟨(i 0).val, (i 0).isLt⟩ : Fin B) l)) (BitVec.ofNat 32 ((i 1).val / 768 + 1)))

/-- The pooled array at (r, e), with the channel and the piece's id named. -/
theorem pooled_apply {B : ℕ} (M : EReal) (x : (⟨3, ![B, 768, 256]⟩ : Shape).Idx → EReal)
    (mk : (⟨2, ![B, 256]⟩ : Shape).Idx → BitVec 32) (r : Fin B) (e : Fin 2304) (k : Fin 768) (w : BitVec 32)
    (hk : e.val % 768 = k.val) (hw : BitVec.ofNat 32 (e.val / 768 + 1) = w) :
    pooled M x mk (ix2 r e)
      = (Finset.univ : Finset (Fin 256)).fold max (⊥ : EReal) fun l =>
          x (ix3 r k l) + bias M (IntOp.cmpi .eq (mk (ix2 r l)) w) := by
  obtain rfl : k = ⟨e.val % 768, Nat.mod_lt _ (by decide)⟩ := Fin.ext hk.symm
  subst hw
  rfl

/-- A block of rows of the pooled array is the pooled array of the blocks: if x0 and x1 are the rows 32 · q … 32 · q + 31 of
    X and Mk, then the pooled array of x0, x1 at j is the pooled array of X, Mk at row 32 · q + j 0, column j 1. Each entry
    depends only on its own row of the inputs. -/
theorem pooled_rows (M : EReal) (X : (⟨3, ![256, 768, 256]⟩ : Shape).Idx → EReal) (Mk : (⟨2, ![256, 256]⟩ : Shape).Idx → BitVec 32)
    (x0 : (⟨3, ![32, 768, 256]⟩ : Shape).Idx → EReal) (x1 : (⟨2, ![32, 256]⟩ : Shape).Idx → BitVec 32) (q : ℕ)
    (h0 : ∀ (a : (⟨3, ![32, 768, 256]⟩ : Shape).Idx) (b : (⟨3, ![256, 768, 256]⟩ : Shape).Idx),
      (b 0).val = 32 * q + (a 0).val → (b 1).val = (a 1).val → (b 2).val = (a 2).val → x0 a = X b)
    (h1 : ∀ (a : (⟨2, ![32, 256]⟩ : Shape).Idx) (b : (⟨2, ![256, 256]⟩ : Shape).Idx),
      (b 0).val = 32 * q + (a 0).val → (b 1).val = (a 1).val → x1 a = Mk b)
    (j : (⟨2, ![32, 2304]⟩ : Shape).Idx) (i : (⟨2, ![256, 2304]⟩ : Shape).Idx)
    (hi0 : (i 0).val = 32 * q + (j 0).val) (hi1 : (i 1).val = (j 1).val) :
    pooled M x0 x1 j = pooled M X Mk i := by
  unfold pooled
  refine congrArg (fun f => Finset.fold max (⊥ : EReal) f (Finset.univ : Finset (Fin 256))) (funext fun l => ?_)
  have e0 := h0 (ix3 (⟨(j 0).val, (j 0).isLt⟩ : Fin 32) (⟨(j 1).val % 768, Nat.mod_lt _ (by decide)⟩ : Fin 768) l)
    (ix3 (⟨(i 0).val, (i 0).isLt⟩ : Fin 256) (⟨(i 1).val % 768, Nat.mod_lt _ (by decide)⟩ : Fin 768) l) hi0
    (by show (i 1).val % 768 = (j 1).val % 768; rw [hi1]) rfl
  have e1 := h1 (ix2 (⟨(j 0).val, (j 0).isLt⟩ : Fin 32) l) (ix2 (⟨(i 0).val, (i 0).isLt⟩ : Fin 256) l) hi0 rfl
  have e2 : BitVec.ofNat 32 ((j 1).val / 768 + 1) = BitVec.ofNat 32 ((i 1).val / 768 + 1) := by rw [hi1]
  show x0 _ + bias M (IntOp.cmpi .eq (x1 _) _) = X _ + bias M (IntOp.cmpi .eq (Mk _) _)
  rw [e0, e1, e2]

end Cert.PieceMax

end
-- ==== Proof.KernelTile.lean ====
/-
  One tile of the kernel's body, read at an index.

  The body builds, once per block, one bias row per piece from the block of piece ids: 0 where a position's id is the
  piece's, the penalty elsewhere, kept as a [32, 1, 256] array. For each slab of 128 channels and each piece it adds
  the bias row to the slab (spread over the channels) and takes the maximum along the positions. So the tile for a
  bias row and a slab is, at (r, d), the maximum over the positions l of slab (r, d, l) + bias (r, 0, l), and the bias
  row of the piece with id w is, at (r, 0, l), the bias from the bit of "id block (r, l) = w".

  Every one of the body's eighteen stored values is such a tile, of one of the three bias rows and one of the six slabs.
-/
import proofs.«114325_j64304250355848_2_alg».proof.Proof.Gen.KernelIdeal.Skeleton
import proofs.«114325_j64304250355848_2_alg».proof.Proof.LibVecMaxLast
import proofs.«114325_j64304250355848_2_alg».proof.Proof.LibRank3Read
import proofs.«114325_j64304250355848_2_alg».proof.Proof.PieceSpec

noncomputable section

namespace Cert.KernelIdeal.Tile

open Cert.KernelIdeal Cert.KernelIdeal.Gen Idealize.ShloMosaic Idealize.ShloMosaic.ValueIdx Cert.PieceMax

/-- The penalty: what the word of −100.0 denotes. It is the same word in both programs and is never evaluated. -/
abbrev M : EReal := Ideal.ofBits .f32 0xC2C80000#32

/-- The bias row of the piece with id w, as the body builds it from the block of ids. -/
def biasRow (w : BitVec 32) (v0 : Vec Ideal S32x256 .i32) : FVec Ideal S32x1x256 .f32 :=
  select (shapeCast S32x1x256 (cmpi .eq v0 (broadcast S32x256 w)) shapeCasts_S32x256_S32x1x256)
    (broadcast S32x1x256 (Scalar.ofBits (F := Ideal) .f32 0x00000000#32))
    (broadcast S32x1x256 (Scalar.ofBits (F := Ideal) .f32 0xC2C80000#32))

theorem pay3_eq (v0 : Vec Ideal S32x256 .i32) : k0_pay3 (F := Ideal) v0 = biasRow 1#32 v0 := rfl
theorem pay4_eq (v0 : Vec Ideal S32x256 .i32) : k0_pay4 (F := Ideal) v0 = biasRow 2#32 v0 := rfl
theorem pay5_eq (v0 : Vec Ideal S32x256 .i32) : k0_pay5 (F := Ideal) v0 = biasRow 3#32 v0 := rfl

/-- The bias row at (r, 0, l): 0 where the id at (r, l) is w, the penalty elsewhere. -/
theorem biasRow_apply (w : BitVec 32) (v0 : Vec Ideal S32x256 .i32) (r : Fin 32) (l : Fin 256) :
    biasRow w v0 (ix3 r (0 : Fin 1) l) = bias M (IntOp.cmpi .eq (v0 (ix2 r l)) w) := by
  unfold biasRow
  rw [select_apply, broadcast_apply, broadcast_apply,
    Idealize.ShloMosaic.Rank3Read.shapeCast_ac_a1c_apply (cmpi .eq v0 (broadcast S32x256 w)) shapeCasts_S32x256_S32x1x256 r 0 l]
  show Scalar.select (IntOp.cmpi .eq (v0 (ix2 r l)) w) (Ideal.ofBits .f32 0x00000000#32) M = Scalar.select _ (0 : EReal) M
  rw [zero_word]

/-- The tile of a bias row and a slab of 128 channels. -/
def tile (b : FVec Ideal S32x1x256 .f32) (x : Vec Ideal S32x128x256 .f32) : FVec Ideal S32x128 .f32 :=
  multiReduction .maximumf [2] S32x128 (addf x (broadcastTo S32x128x256 b broadcasts_S32x1x256_S32x128x256)) 0xFF800000#32
    reduces_S32x128x256_S32x128 (.inl rfl) rfl

/-- The tile at (r, d): the maximum over the positions of the slab's entry plus the bias row's. -/
theorem tile_apply (b : FVec Ideal S32x1x256 .f32) (x : Vec Ideal S32x128x256 .f32) (r : Fin 32) (d : Fin 128) :
    tile b x (ix2 r d)
      = (Finset.univ : Finset (Fin 256)).fold max (⊥ : EReal) (fun l => x (ix3 r d l) + b (ix3 r (0 : Fin 1) l)) := by
  unfold tile
  refine (Idealize.ShloMosaic.VecMaxLast.maxLast_apply
    (addf x (broadcastTo S32x128x256 b broadcasts_S32x1x256_S32x128x256)) reduces_S32x128x256_S32x128 (.inl rfl) rfl r d).trans ?_
  refine congrArg (fun f => Finset.fold max (⊥ : EReal) f (Finset.univ : Finset (Fin 256))) (funext fun l => ?_)
  rw [addf_apply, Idealize.ShloMosaic.Rank3Read.broadcastTo_a1c_abc_apply b broadcasts_S32x1x256_S32x128x256 r d l]

/-! The body's stored values are tiles. -/

theorem pay6_eq (v0 : Vec Ideal S32x256 .i32) (x : Vec Ideal S32x128x256 .f32) : k0_pay6 (F := Ideal) v0 x = tile (biasRow 1#32 v0) x := rfl
theorem pay7_eq (v0 : Vec Ideal S32x256 .i32) (x : Vec Ideal S32x128x256 .f32) : k0_pay7 (F := Ideal) v0 x = tile (biasRow 2#32 v0) x := rfl
theorem pay8_eq (v0 : Vec Ideal S32x256 .i32) (x : Vec Ideal S32x128x256 .f32) : k0_pay8 (F := Ideal) v0 x = tile (biasRow 3#32 v0) x := rfl
theorem pay1_eq (b : FVec Ideal S32x1x256 .f32) (x : Vec Ideal S32x128x256 .f32) : k0_pay1 (F := Ideal) b x = tile b x := rfl
theorem pay2_eq (b : FVec Ideal S32x1x256 .f32) (x : Vec Ideal S32x128x256 .f32) : k0_pay2 (F := Ideal) b x = tile b x := rfl
theorem pay9_eq (b : FVec Ideal S32x1x256 .f32) (x : Vec Ideal S32x128x256 .f32) : k0_pay9 (F := Ideal) b x = tile b x := rfl
theorem pay10_eq (b : FVec Ideal S32x1x256 .f32) (x : Vec Ideal S32x128x256 .f32) : k0_pay10 (F := Ideal) b x = tile b x := rfl
theorem pay11_eq (b : FVec Ideal S32x1x256 .f32) (x : Vec Ideal S32x128x256 .f32) : k0_pay11 (F := Ideal) b x = tile b x := rfl
theorem pay12_eq (b : FVec Ideal S32x1x256 .f32) (x : Vec Ideal S32x128x256 .f32) : k0_pay12 (F := Ideal) b x = tile b x := rfl
theorem pay13_eq (b : FVec Ideal S32x1x256 .f32) (x : Vec Ideal S32x128x256 .f32) : k0_pay13 (F := Ideal) b x = tile b x := rfl
theorem pay14_eq (b : FVec Ideal S32x1x256 .f32) (x : Vec Ideal S32x128x256 .f32) : k0_pay14 (F := Ideal) b x = tile b x := rfl
theorem pay16_eq (b : FVec Ideal S32x1x256 .f32) (x : Vec Ideal S32x128x256 .f32) : k0_pay16 (F := Ideal) x (k0_pay15 (F := Ideal) b) = tile b x := rfl
theorem pay17_eq (b : FVec Ideal S32x1x256 .f32) (x : Vec Ideal S32x128x256 .f32) : k0_pay17 (F := Ideal) b x = tile b x := rfl
theorem pay18_eq (b : FVec Ideal S32x1x256 .f32) (x : Vec Ideal S32x128x256 .f32) : k0_pay18 (F := Ideal) b x = tile b x := rfl
theorem pay19_eq (b : FVec Ideal S32x1x256 .f32) (x : Vec Ideal S32x128x256 .f32) : k0_pay19 (F := Ideal) b x = tile b x := rfl
theorem pay20_eq (b : FVec Ideal S32x1x256 .f32) (x : Vec Ideal S32x128x256 .f32) : k0_pay20 (F := Ideal) b x = tile b x := rfl
theorem pay21_eq (b : FVec Ideal S32x1x256 .f32) (x : Vec Ideal S32x128x256 .f32) : k0_pay21 (F := Ideal) b x = tile b x := rfl
theorem pay22_eq (b : FVec Ideal S32x1x256 .f32) (x : Vec Ideal S32x128x256 .f32) : k0_pay22 (F := Ideal) b x = tile b x := rfl

end Cert.KernelIdeal.Tile

end
-- ==== Proof.Block.lean ====
/-
  What the body leaves in a block of the output: the pooled array of the block's inputs.

  The body writes the [32, 2304] output block by eighteen stores, one per piece p and slab of 128 channels starting at
  channel o: the tile of piece p's bias row and that slab, through the rectangle of columns 768 · p + o … + 127. A
  column e = 768 · p + o + d of that rectangle is piece e / 768 = p (id p + 1), channel e % 768 = o + d, and the slab's
  entry (r, d, l) is the input block's entry (r, o + d, l). So each store's value, at every index of its rectangle, is
  the pooled array of the two input blocks; the eighteen rectangles cover the block; hence the whole block is.
-/
import proofs.«114325_j64304250355848_2_alg».proof.Proof.Gen.KernelIdeal.Frame
import proofs.«114325_j64304250355848_2_alg».proof.Proof.KernelTile
import Idealize.ShloMosaic.Lib.Pipeline.Value

noncomputable section

namespace Cert.KernelIdeal.Tile

open Cert.KernelIdeal Cert.KernelIdeal.Gen Idealize.ShloMosaic Idealize.ShloMosaic.ValueIdx Cert.PieceMax

/-- The tile of the piece with id w = p + 1 and the slab of channels oI … oI + 127, at an index y of the tile, is the pooled
    array of the input blocks at y placed in the rectangle of columns oO = 768 · p + oI … oO + 127. -/
theorem slab_tile (x0 : Vec Ideal S32x768x256 .f32) (x1 : Vec Ideal S32x256 .i32) (w : BitVec 32) (p oI oO : ℕ)
    (hw : BitVec.ofNat 32 (p + 1) = w) (hO : oO = 768 * p + oI) (hI : oI + 128 ≤ 768)
    (inbI : ∀ a, (![0, oI, 0] : Fin 3 → ℕ) a + S32x128x256.size a ≤ S32x768x256.size a)
    (inbO : ∀ a, (![0, oO] : Fin 2 → ℕ) a + S32x128.size a ≤ S32x2304.size a) (y : S32x128.Idx) :
    tile (biasRow w x1) (View.ld x0 (Rect.unit (s := S32x768x256) ![0, oI, 0] S32x128x256.size inbI)) y
      = pooled M x0 x1 ((Rect.unit (s := S32x2304) ![0, oO] S32x128.size inbO).emb y) := by
  obtain ⟨r, d, rfl⟩ : ∃ (r : Fin 32) (d : Fin 128), y = ix2 r d := ⟨y 0, y 1, eq_ix2 y⟩
  have hd : d.val < 128 := d.isLt
  have h2 : (![0, oO] : Fin 2 → ℕ) 1 + S32x128.size 1 ≤ S32x2304.size 1 := inbO 1
  have hO2 : oO + 128 ≤ 2304 := h2
  have hemb : (Rect.unit (s := S32x2304) ![0, oO] S32x128.size inbO).emb (ix2 r d)
      = ix2 r (⟨oO + d.val, by omega⟩ : Fin 2304) := by
    funext a; apply Fin.ext
    match a with
    | ⟨0, _⟩ => show 0 + 1 * r.val = r.val; omega
    | ⟨1, _⟩ => show oO + 1 * d.val = oO + d.val; omega
  rw [hemb, tile_apply,
    pooled_apply M x0 x1 r (⟨oO + d.val, by omega⟩ : Fin 2304) (⟨oI + d.val, by omega⟩ : Fin 768) w
      (by show (oO + d.val) % 768 = oI + d.val; omega)
      (by rw [← hw]; show BitVec.ofNat 32 ((oO + d.val) / 768 + 1) = BitVec.ofNat 32 (p + 1)
          have : (oO + d.val) / 768 = p := by omega
          rw [this])]
  refine congrArg (fun f => Finset.fold max (⊥ : EReal) f (Finset.univ : Finset (Fin 256))) (funext fun l => ?_)
  rw [biasRow_apply]
  refine congrArg (fun z => z + bias M (IntOp.cmpi .eq (x1 (ix2 r l)) w)) ?_
  show x0 ((Rect.unit (s := S32x768x256) ![0, oI, 0] S32x128x256.size inbI).emb (ix3 r d l)) = x0 (ix3 r (⟨oI + d.val, by omega⟩ : Fin 768) l)
  refine congrArg x0 ?_
  funext a; apply Fin.ext
  match a with
  | ⟨0, _⟩ => show 0 + 1 * r.val = r.val; omega
  | ⟨1, _⟩ => show oI + 1 * d.val = oI + d.val; omega
  | ⟨2, _⟩ => show 0 + 1 * l.val = l.val; omega

/-- The offsets of a load of a whole [32, 256] block are zero on both axes. -/
theorem zero_offsets : (![0, 0] : Fin 2 → Nat) = fun _ => 0 := funext fun a => by fin_cases a <;> rfl

/-- What the body leaves in the output block is the pooled array of the two input blocks: each of the eighteen stores,
    last first, is the tile of its piece (id 3, 2, 1) and its slab (channels from 640, 512, 384, 256, 128, 0). -/
theorem out_eq (x0 : Vec Ideal S32x768x256 .f32) (x1 : Vec Ideal S32x256 .i32) :
    out0_2 (F := Ideal) x0 x1 = pooled M x0 x1 := by
  funext y
  unfold out0_2
  simp only [View.ld_unit_zero (S := S32x256) zero_offsets]
  simp only [pay3_eq, pay4_eq, pay5_eq, pay6_eq, pay7_eq, pay8_eq, pay1_eq, pay2_eq, pay9_eq, pay10_eq, pay11_eq, pay12_eq,
    pay13_eq, pay14_eq, pay16_eq, pay17_eq, pay18_eq, pay19_eq, pay20_eq, pay21_eq, pay22_eq]
  refine View.canon_apply_of_pieces (Val := Elt Ideal) (S := S32x2304) (e := .f32) (pooled M x0 x1) _ ?_ y
    (cover0_2 _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl
  · intro y; dsimp only at y ⊢; exact slab_tile x0 x1 3#32 2 640 2176 (by decide) (by decide) (by decide) _ _ y
  · intro y; dsimp only at y ⊢; exact slab_tile x0 x1 2#32 1 640 1408 (by decide) (by decide) (by decide) _ _ y
  · intro y; dsimp only at y ⊢; exact slab_tile x0 x1 1#32 0 640 640 (by decide) (by decide) (by decide) _ _ y
  · intro y; dsimp only at y ⊢; exact slab_tile x0 x1 3#32 2 512 2048 (by decide) (by decide) (by decide) _ _ y
  · intro y; dsimp only at y ⊢; exact slab_tile x0 x1 2#32 1 512 1280 (by decide) (by decide) (by decide) _ _ y
  · intro y; dsimp only at y ⊢; exact slab_tile x0 x1 1#32 0 512 512 (by decide) (by decide) (by decide) _ _ y
  · intro y; dsimp only at y ⊢; exact slab_tile x0 x1 3#32 2 384 1920 (by decide) (by decide) (by decide) _ _ y
  · intro y; dsimp only at y ⊢; exact slab_tile x0 x1 2#32 1 384 1152 (by decide) (by decide) (by decide) _ _ y
  · intro y; dsimp only at y ⊢; exact slab_tile x0 x1 1#32 0 384 384 (by decide) (by decide) (by decide) _ _ y
  · intro y; dsimp only at y ⊢; exact slab_tile x0 x1 3#32 2 256 1792 (by decide) (by decide) (by decide) _ _ y
  · intro y; dsimp only at y ⊢; exact slab_tile x0 x1 2#32 1 256 1024 (by decide) (by decide) (by decide) _ _ y
  · intro y; dsimp only at y ⊢; exact slab_tile x0 x1 1#32 0 256 256 (by decide) (by decide) (by decide) _ _ y
  · intro y; dsimp only at y ⊢; exact slab_tile x0 x1 3#32 2 128 1664 (by decide) (by decide) (by decide) _ _ y
  · intro y; dsimp only at y ⊢; exact slab_tile x0 x1 2#32 1 128 896 (by decide) (by decide) (by decide) _ _ y
  · intro y; dsimp only at y ⊢; exact slab_tile x0 x1 1#32 0 128 128 (by decide) (by decide) (by decide) _ _ y
  · intro y; dsimp only at y ⊢; exact slab_tile x0 x1 3#32 2 0 1536 (by decide) (by decide) (by decide) _ _ y
  · intro y; dsimp only at y ⊢; exact slab_tile x0 x1 2#32 1 0 768 (by decide) (by decide) (by decide) _ _ y
  · intro y; dsimp only at y ⊢; exact slab_tile x0 x1 1#32 0 0 0 (by decide) (by decide) (by decide) _ _ y

end Cert.KernelIdeal.Tile

end
-- ==== Proof.Array.lean ====
/-
  From blocks to the array: after the run the output array is the pooled array of the two argument arrays.

  The grid has eight points; at point t every window's block is rows 32 · t … 32 · t + 31 of its array, whole in the other
  axes (the index maps, decided over the eight points). What point t writes back is the pooled array of its two input
  blocks, and a block of rows of the pooled array is the pooled array of the blocks; so point t writes block t of the
  pooled array of the arguments. Row i 0 of the output lies in the block of point i 0 / 32, so the eight blocks cover
  the array, and the array ends holding the pooled array everywhere.
-/
import proofs.«114325_j64304250355848_2_alg».proof.Proof.Gen.KernelIdeal.Value
import proofs.«114325_j64304250355848_2_alg».proof.Proof.Block

noncomputable section

namespace Cert.KernelIdeal.Tile

open Cert.KernelIdeal Cert.KernelIdeal.Gen Idealize.ShloMosaic Idealize.ShloMosaic.TcCoe Idealize.SL.Sem
open Idealize.ShloMosaic.ValueIdx Cert.PieceMax
open Idealize.ShloMosaic.Pipeline (Dat)

variable (m : (ℓ : Loc nD τ sig) → Buf (Elt Ideal) ℓ) (ρ : Dev nD → PrngReg)

/-- The index maps over the grid: at point t each window's block index is t on the rows and 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the pooled array of the argument arrays as the region finds them. -/
theorem flushed_eq (c : Dev nD) (t : Fin cfg0.N) :
    (dats m 0 c).flushed 2 t
      = ((cfg0.win 2).blk t).view.read (Elt Ideal) (pooled M (V m c main_arg0) (V m c main_arg1)) := by
  refine (Cert.KernelIdeal.Value.flushed2 m c t).trans ?_
  refine (congrArg ((cfg0.win 2).cut (grid0.coords t)) (out_eq (iblk m c 0 t) (iblk m c 1 t))).trans ?_
  obtain ⟨a0, a1, a2, b0, b1, c0, c1⟩ := idx_facts t
  funext j
  show pooled M (iblk m c 0 t) (iblk m c 1 t) j = pooled M (V m c main_arg0) (V m c main_arg1) (((cfg0.win 2).blk t).view.emb j)
  refine pooled_rows M (V m c main_arg0) (V m c main_arg1) (iblk m c 0 t) (iblk m c 1 t) t.val ?_ ?_ j _ ?_ ?_
  · intro a b h0 h1 h2
    show V m c main_arg0 (((cfg0.win 0).blk t).view.emb a) = V m c main_arg0 b
    refine congrArg (V m c main_arg0) ?_
    funext ax; apply Fin.ext
    match ax with
    | ⟨0, _⟩ => show win0_0.index t (0 : Fin 3) * 32 + 1 * (a 0).val = (b 0).val; omega
    | ⟨1, _⟩ => show win0_0.index t (1 : Fin 3) * 768 + 1 * (a 1).val = (b 1).val; omega
    | ⟨2, _⟩ => show win0_0.index t (2 : Fin 3) * 256 + 1 * (a 2).val = (b 2).val; omega
  · intro a b h0 h1
    show V m c main_arg1 (((cfg0.win 1).blk t).view.emb a) = V m c main_arg1 b
    refine congrArg (V m c main_arg1) ?_
    funext ax; apply Fin.ext
    match ax with
    | ⟨0, _⟩ => show win0_1.index t (0 : Fin 2) * 32 + 1 * (a 0).val = (b 0).val; omega
    | ⟨1, _⟩ => show win0_1.index t (1 : Fin 2) * 256 + 1 * (a 1).val = (b 1).val; omega
  · show win0_2.index t (0 : Fin 2) * 32 + 1 * (j 0).val = 32 * t.val + (j 0).val; omega
  · show win0_2.index t (1 : Fin 2) * 2304 + 1 * (j 1).val = (j 1).val; omega

/-- An index of the array is in point t's block iff each coordinate is in the block's range on its axis. -/
theorem mem_blk (t : Fin cfg0.N) (i : S256x2304.Idx) :
    i ∈ ((cfg0.win 2).blk t).view.set ↔ ∀ a : Fin 2, win0_2.index t a * S32x2304.size a ≤ (i a).val
      ∧ (i a).val < win0_2.index t a * S32x2304.size a + S32x2304.size a := by
  show i ∈ ((View.whole main_v0).slice (win0_2.rect t)).set ↔ _
  rw [View.set_slice_whole, Rect.mem_set_unit]
  exact Iff.rfl

/-- Every index of the output array is in the block of the point its row names. -/
theorem cover (i : S256x2304.Idx) : ∃ t : Fin cfg0.N, (cfg0.win 2).flush t = true ∧ i ∈ ((cfg0.win 2).blk t).view.set := by
  have hi0 : (i 0).val < 256 := (i 0).isLt
  have hi1 : (i 1).val < 2304 := (i 1).isLt
  have hN : cfg0.N = 8 := rfl
  refine ⟨⟨(i 0).val / 32, by rw [hN]; omega⟩, flush0_2 _, ?_⟩
  obtain ⟨-, -, -, -, -, c0, c1⟩ := idx_facts ⟨(i 0).val / 32, by rw [hN]; omega⟩
  rw [mem_blk]
  intro a
  match a with
  | ⟨0, _⟩ =>
    show win0_2.index _ (0 : Fin 2) * 32 ≤ (i 0).val ∧ (i 0).val < win0_2.index _ (0 : Fin 2) * 32 + 32
    rw [c0]; show (i 0).val / 32 * 32 ≤ (i 0).val ∧ (i 0).val < (i 0).val / 32 * 32 + 32; omega
  | ⟨1, _⟩ =>
    show win0_2.index _ (1 : Fin 2) * 2304 ≤ (i 1).val ∧ (i 1).val < win0_2.index _ (1 : Fin 2) * 2304 + 2304
    rw [c1]; omega

/-- The output array after the run is the pooled array of the argument arrays. -/
theorem final (c : Dev nD) :
    (dats m 0 c).arrAt 2 cfg0.N
      = pooled M (m ((c : Thread nD τ).loc main_arg0)) (m ((c : Thread nD τ).loc main_arg1)) :=
  (dats m 0 c).arrAt_eq_of_cover 2 (pooled M (V m c main_arg0) (V m c main_arg1)) (fun t _ => flushed_eq m c t) cover

/-- The kernel's run, read: the result array ends at the pooled array of the arguments, the arguments unchanged. -/
theorem run : θ_run defs (onTc (τ := τ) (main (F := Ideal))) ⟨m, fun _ => 0, ρ⟩ fun r => ∀ c : Dev nD,
      r.2.mem ((c : Thread nD τ).loc main_v0)
        = pooled M (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Tile

end
-- ==== Proof.LibLastAxisMax.lean ====
/-
  The host's maximum over the LAST axis of a rank-four array, read at an index, at the extended reals.

  A one-operand reduce with a maximum body over axis 3 of an [a, b, c, d] array, from an initial value that denotes −∞,
  is at (p, q, r) the fold of max from ⊥ over the d entries (p, q, r, j) — the same `Finset.fold` a row maximum of a
  matrix lands on, so a batched row maximum is compared with a matrix's row maximum entry by entry.
-/
import Idealize.ShloMosaic.PureOps.Ideal.Laws
import Idealize.ShloMosaic.Lib.ValueIdx

noncomputable section

namespace Idealize.ShloMosaic.LastAxisMax

open Idealize.ShloMosaic Idealize.ShloMosaic.ValueIdx

/-- The index (p, q, r, j) is the index (p, q, r) with j inserted on the reduced last axis. -/
theorem lift_last {a b c d : ℕ} (h : Shape.Reduces ⟨4, ![a, b, c, d]⟩ [3] ⟨3, ![a, b, c]⟩) (p : Fin a) (q : Fin b) (r : Fin c)
    (j : Fin d) : h.lift (ix3 p q r) j = ix4 p q r j := by
  funext e
  match e with
  | ⟨0, _⟩ => rfl
  | ⟨1, _⟩ => rfl
  | ⟨2, _⟩ => rfl
  | ⟨3, _⟩ => rfl

/-- The host's reduce with a maximum body over the last axis, from an initial value that denotes −∞, read at (p, q, r). -/
theorem hostMax_apply {a b c d : ℕ} {u : Shape} (x : (⟨4, ![a, b, c, d]⟩ : Shape).Idx → Ideal .f32) (init : u.Idx → Ideal .f32)
    (h' : Shape.ReducesTo ⟨4, ![a, b, c, d]⟩ [3] ⟨3, ![a, b, c]⟩) (h : Shape.Reduces ⟨4, ![a, b, c, d]⟩ [3] ⟨3, ![a, b, c]⟩)
    (hu : 0 < u.numel) (hinit : init (Shape.Idx.first hu) = ⊥) (p : Fin a) (q : Fin b) (r : Fin c) :
    Host.reduce (FloatOps.maximumf (F := Ideal) (φ := .f32)) x init h' hu (ix3 p q r)
      = (Finset.univ : Finset (Fin d)).fold max ⊥ (fun j => x (ix4 p q r j)) := by
  refine (Host.reduce_eq_fold_single (FloatOps.maximumf (F := Ideal) (φ := .f32)) x init h' h hu (ix3 p q r)).trans ?_
  rw [hinit]
  show (Finset.univ : Finset (Fin d)).fold max ⊥ (x ∘ h.lift (ix3 p q r)) = _
  exact congrArg (fun f => Finset.fold max ⊥ f (Finset.univ : Finset (Fin d))) (funext fun j => congrArg x (lift_last h p q r j))

end Idealize.ShloMosaic.LastAxisMax

end
-- ==== Proof.RefSide.lean ====
/-
  The reference computes the pooled array.

  The reference builds a one-hot array of the comparisons "id (b, l) = p + 1" for p = 0, 1, 2, turns each bit into the
  number 1 or 0, transposes it to (b, p, l), and forms the bias as penalty · (1 − bit). It adds the bias to x spread
  over the three pieces, takes the maximum along the positions, and reshapes (b, p, k) to (b, p · 768 + k). Read at
  (r, p, k, l) the summand is x (r, k, l) + penalty · (1 − bit), which is the bias written as a choice by the bit; the
  maximum along the last axis is the fold of max from −∞ over l; and column e of the reshaped array is piece e / 768,
  channel e % 768.
-/
import proofs.«114325_j64304250355848_2_alg».proof.Proof.Gen.ReferenceIdeal.Read
import proofs.«114325_j64304250355848_2_alg».proof.Proof.LibLastAxisMax
import proofs.«114325_j64304250355848_2_alg».proof.Proof.LibVecMaxLast
import proofs.«114325_j64304250355848_2_alg».proof.Proof.PieceSpec

noncomputable section

namespace Cert.ReferenceIdeal.RefSide

open Cert.ReferenceIdeal Cert.ReferenceIdeal.Gen Cert.ReferenceIdeal.Read Idealize.ShloMosaic Idealize.ShloMosaic.ValueIdx
open Cert.PieceMax

/-- The penalty: what the word of −100.0 denotes; never evaluated. -/
abbrev M : EReal := Ideal.ofBits .f32 0xC2C80000#32

/-- The piece ids: one plus the piece's number, as 32-bit words. -/
theorem id_word (p : Fin 3) : IntOp.addi 1#32 (BitVec.ofNat 32 p.val) = BitVec.ofNat 32 (p.val + 1) := by
  fin_cases p <;> rfl

/-- The summand under the maximum at (r, p, k, l): x (r, k, l) plus the bias of position l for the piece with id p + 1. -/
theorem summand_apply (x0 : (⟨S256x768x256, .f32⟩ : BufTy).Contents (Elt Ideal)) (x1 : (⟨S256x256, .i32⟩ : BufTy).Contents (Elt Ideal))
    (r : Fin 256) (p : Fin 3) (k : Fin 768) (l : Fin 256) :
    val_main_v18 (F := Ideal) x0 x1 (ix4 r p k l)
      = x0 (ix3 r k l) + bias M (IntOp.cmpi .eq (x1 (ix2 r l)) (BitVec.ofNat 32 (p.val + 1))) := by
  rw [val_main_v18_apply, val_main_v16_apply, val_main_v15_apply, val_main_v17_apply, val_main_v14_apply, val_main_v13_apply,
    val_main_cst_0_apply, val_main_v12_apply, val_main_v11_apply, val_main_v10_apply, val_main_cst_apply, val_main_v9_apply,
    val_main_v8_apply, val_main_v7_apply, val_main_v5_apply, val_main_v0_apply, val_main_v6_apply, val_main_v4_apply,
    val_main_v3_apply, val_main_v2_apply, val_main_c_apply, val_main_v1_apply]
  have hx : idx_main_v15 (idx_main_v16 (ix4 r p k l)) = ix3 r k l :=
    funext fun a => match a with | ⟨0, _⟩ => rfl | ⟨1, _⟩ => rfl | ⟨2, _⟩ => rfl
  have hm : idx_main_v0 (idx_main_v5 (idx_main_v9 (idx_main_v12 (idx_main_v17 (ix4 r p k l))))) = ix2 r l :=
    funext fun a => match a with | ⟨0, _⟩ => rfl | ⟨1, _⟩ => rfl
  rw [bias_eq_mul, ← id_word p, hx, hm]
  rfl

/-- The f32 word 0xFF800000, the reduce's initial value, denotes −∞. -/
theorem init_bot : val_main_cst_1 (F := Ideal) (Shape.Idx.first h_S_) = (⊥ : EReal) :=
  Idealize.ShloMosaic.VecMaxLast.negInf_word

/-- The reference's result is the pooled array of the arguments. -/
theorem result_eq (x0 : (⟨S256x768x256, .f32⟩ : BufTy).Contents (Elt Ideal)) (x1 : (⟨S256x256, .i32⟩ : BufTy).Contents (Elt Ideal)) :
    val_main_v20 (F := Ideal) x0 x1 = pooled M x0 x1 := by
  funext i
  obtain ⟨r, e, rfl⟩ : ∃ (r : Fin 256) (e : Fin 2304), i = ix2 r e := ⟨i 0, i 1, eq_ix2 i⟩
  have hr : r.val < 256 := r.isLt
  have he : e.val < 2304 := e.isLt
  rw [val_main_v20_apply]
  have hidx : idx_main_v20 (ix2 r e) = ix3 r (⟨e.val / 768, by omega⟩ : Fin 3) (⟨e.val % 768, by omega⟩ : Fin 768) := by
    funext a; apply Fin.ext
    match a with
    | ⟨0, _⟩ => show (r.val * 2304 + e.val) / 2304 = r.val; omega
    | ⟨1, _⟩ => show (r.val * 2304 + e.val) / 768 % 3 = e.val / 768; omega
    | ⟨2, _⟩ => show (r.val * 2304 + e.val) % 768 = e.val % 768; omega
  rw [hidx]
  unfold val_main_v19
  refine (Idealize.ShloMosaic.LastAxisMax.hostMax_apply (val_main_v18 (F := Ideal) x0 x1) (val_main_cst_1 (F := Ideal))
    reducesTo_S256x3x768x256_S256x3x768_d3 (by decide) h_S_ init_bot r _ _).trans ?_
  rw [pooled_apply M x0 x1 r e (⟨e.val % 768, by omega⟩ : Fin 768) (BitVec.ofNat 32 (e.val / 768 + 1)) rfl rfl]
  exact congrArg (fun f => Finset.fold max (⊥ : EReal) f (Finset.univ : Finset (Fin 256)))
    (funext fun l => summand_apply x0 x1 r (⟨e.val / 768, by omega⟩ : Fin 3) (⟨e.val % 768, by omega⟩ : Fin 768) l)

end Cert.ReferenceIdeal.RefSide

end
-- ==== Proof.lean ====
/-
  Masked max-pooling per piece: the kernel and its reference compute one array.

  For a batch row b, a channel k and a piece with id w ∈ {1, 2, 3} both programs form
      max over the positions l of  x (b, k, l) + bias (b, l, w),
  where the bias is 0 at the positions whose piece id is w and the penalty −100 elsewhere, and both lay the result out
  piece-major: column 768 · (w − 1) + k of row b.

  The kernel works on blocks of 32 rows. Per block it builds the three bias rows by a choice between 0 and the penalty on
  the bit of "id = w", and for each of six slabs of 128 channels and each piece takes the maximum along the positions of
  slab + bias row, storing the 32 × 128 tile into its columns; the eighteen tiles tile the block and the eight blocks the
  array. The reference spells the bias as penalty · (1 − bit as a number) over the whole array, adds, and reduces the last
  axis. Choosing by the bit and multiplying by one minus the bit are the same extended real at both values of the bit
  (M · 0 = 0 and M · 1 = M hold for every extended real M), so the two summands agree entry by entry, and a maximum is a
  maximum whatever the tiling. No step needs the inputs to be finite.

  The two runs are the generated ones: the kernel's frame run with its output array named, block by block, and the
  reference's run read one operation at a time. Written here: that a tile of the body is the pooled array on its
  columns, that the eighteen stores make the block's pooled array, that the blocks make the array's, and that the
  reference's stages compose to the same function.
-/
import proofs.«114325_j64304250355848_2_alg».proof.Defs
import proofs.«114325_j64304250355848_2_alg».proof.Proof.Gen.Kernel
import proofs.«114325_j64304250355848_2_alg».proof.Proof.Gen.Kernel.Skeleton
import proofs.«114325_j64304250355848_2_alg».proof.Proof.Gen.Kernel.Launch
import proofs.«114325_j64304250355848_2_alg».proof.Proof.Gen.Kernel.Points
import proofs.«114325_j64304250355848_2_alg».proof.Proof.Gen.Kernel.Frame
import proofs.«114325_j64304250355848_2_alg».proof.Proof.Gen.KernelIdeal
import proofs.«114325_j64304250355848_2_alg».proof.Proof.Gen.KernelIdeal.Skeleton
import proofs.«114325_j64304250355848_2_alg».proof.Proof.Gen.KernelIdeal.Launch
import proofs.«114325_j64304250355848_2_alg».proof.Proof.Gen.KernelIdeal.Points
import proofs.«114325_j64304250355848_2_alg».proof.Proof.Gen.KernelIdeal.Frame
import proofs.«114325_j64304250355848_2_alg».proof.Proof.Gen.ReferenceIdeal
import proofs.«114325_j64304250355848_2_alg».proof.Proof.Gen.Pre_finite_inputs
import proofs.«114325_j64304250355848_2_alg».proof.Proof.Gen.KernelIdeal.Value
import proofs.«114325_j64304250355848_2_alg».proof.Proof.Gen.ReferenceIdeal.Run
import proofs.«114325_j64304250355848_2_alg».proof.Proof.Gen.ReferenceIdeal.Read
import proofs.«114325_j64304250355848_2_alg».proof.Proof.Array
import proofs.«114325_j64304250355848_2_alg».proof.Proof.RefSide
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments both programs end with the pooled array of the arguments: the kernel's
    output array block by block, the reference's last stage as the composition of its operations. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefSide.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
